-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S300000x2 : Shape := ⟨2, ![300000, 2]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256x256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  main_v38

def fn_part1 {F : FTy → Type} [FloatOps F] (main_arg5 : FVec F S256x256 .f32) (main_arg6 : FVec F S256x256 .f32) (main_arg7 : FVec F S256 .f32) (main_arg8 : FVec F S256x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_v33

def fn {F : FTy → Type} [FloatOps F] (main_arg0 : FVec F S50000x256 .f32) (main_arg1 : FVec F S50000x256 .f32) (main_arg2 : IVec S300000x2 32) (main_arg3 : FVec F S256x256 .f32) (main_arg4 : FVec F S256 .f32) (main_arg5 : FVec F S256x256 .f32) (main_arg6 : FVec F S256x256 .f32) (main_arg7 : FVec F S256 .f32) (main_arg8 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x256 : Shape := ⟨2, ![50000, 256]⟩
abbrev S300000x2 : Shape := ⟨2, ![300000, 2]⟩
abbrev S256x256 : Shape := ⟨2, ![256, 256]⟩
abbrev S256 : Shape := ⟨1, ![256]⟩
abbrev S300000x1 : Shape := ⟨2, ![300000, 1]⟩
abbrev S300000 : Shape := ⟨1, ![300000]⟩
abbrev S_ : Shape := ⟨0, ![]⟩
abbrev S300000x256 : Shape := ⟨2, ![300000, 256]⟩
abbrev S50000 : Shape := ⟨1, ![50000]⟩
abbrev S50000x1 : Shape := ⟨2, ![50000, 1]⟩
abbrev S1x256 : Shape := ⟨2, ![1, 256]⟩
abbrev S2000x256 : Shape := ⟨2, ![2000, 256]⟩
abbrev S2000x1 : Shape := ⟨2, ![2000, 1]⟩

abbrev nBuf : Space → Nat
  | .hbm => 61
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S300000x2, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S300000x1, .i32⟩
  | .hbm, ⟨10, _⟩ => ⟨S300000, .i32⟩
  | .hbm, ⟨11, _⟩ => ⟨S300000x1, .i32⟩
  | .hbm, ⟨12, _⟩ => ⟨S300000, .i32⟩
  | .hbm, ⟨13, _⟩ => ⟨S_, .i32⟩
  | .hbm, ⟨14, _⟩ => ⟨S300000, .i32⟩
  | .hbm, ⟨15, _⟩ => ⟨S300000, .i1⟩
  | .hbm, ⟨16, _⟩ => ⟨S_, .i32⟩
  | .hbm, ⟨17, _⟩ => ⟨S300000, .i32⟩
  | .hbm, ⟨18, _⟩ => ⟨S300000, .i32⟩
  | .hbm, ⟨19, _⟩ => ⟨S300000, .i32⟩
  | .hbm, ⟨20, _⟩ => ⟨S300000x1, .i32⟩
  | .hbm, ⟨21, _⟩ => ⟨S300000x256, .f32⟩
  | .hbm, ⟨22, _⟩ => ⟨S_, .f32⟩
  | .hbm, ⟨23, _⟩ => ⟨S50000x256, .f32⟩
  | .hbm, ⟨24, _⟩ => ⟨S300000x1, .i32⟩
  | .hbm, ⟨25, _⟩ => ⟨S50000x256, .f32⟩
  | .hbm, ⟨26, _⟩ => ⟨S_, .f32⟩
  | .hbm, ⟨27, _⟩ => ⟨S300000, .f32⟩
  | .hbm, ⟨28, _⟩ => ⟨S_, .f32⟩
  | .hbm, ⟨29, _⟩ => ⟨S50000, .f32⟩
  | .hbm, ⟨30, _⟩ => ⟨S300000x1, .i32⟩
  | .hbm, ⟨31, _⟩ => ⟨S50000, .f32⟩
  | .hbm, ⟨32, _⟩ => ⟨S256x256, .f32⟩
  | .hbm, ⟨33, _⟩ => ⟨S256x256, .f32⟩
  | .hbm, ⟨34, _⟩ => ⟨S50000x1, .f32⟩
  | .hbm, ⟨35, _⟩ => ⟨S1x256, .f32⟩
  | .hbm, ⟨36, _⟩ => ⟨S50000x256, .f32⟩
  | .hbm, ⟨37, _⟩ => ⟨S_, .i32⟩
  | .hbm, ⟨38, _⟩ => ⟨S300000, .i32⟩
  | .hbm, ⟨39, _⟩ => ⟨S300000, .i1⟩
  | .hbm, ⟨40, _⟩ => ⟨S_, .i32⟩
  | .hbm, ⟨41, _⟩ => ⟨S300000, .i32⟩
  | .hbm, ⟨42, _⟩ => ⟨S300000, .i32⟩
  | .hbm, ⟨43, _⟩ => ⟨S300000, .i32⟩
  | .hbm, ⟨44, _⟩ => ⟨S300000x1, .i32⟩
  | .hbm, ⟨45, _⟩ => ⟨S300000x256, .f32⟩
  | .hbm, ⟨46, _⟩ => ⟨S_, .f32⟩
  | .hbm, ⟨47, _⟩ => ⟨S50000x256, .f32⟩
  | .hbm, ⟨48, _⟩ => ⟨S300000x1, .i32⟩
  | .hbm, ⟨49, _⟩ => ⟨S50000x256, .f32⟩
  | .hbm, ⟨50, _⟩ => ⟨S_, .f32⟩
  | .hbm, ⟨51, _⟩ => ⟨S300000, .f32⟩
  | .hbm, ⟨52, _⟩ => ⟨S_, .f32⟩
  | .hbm, ⟨53, _⟩ => ⟨S50000, .f32⟩
  | .hbm, ⟨54, _⟩ => ⟨S300000x1, .i32⟩
  | .hbm, ⟨55, _⟩ => ⟨S50000, .f32⟩
  | .hbm, ⟨56, _⟩ => ⟨S256x256, .f32⟩
  | .hbm, ⟨57, _⟩ => ⟨S256x256, .f32⟩
  | .hbm, ⟨58, _⟩ => ⟨S50000x1, .f32⟩
  | .hbm, ⟨59, _⟩ => ⟨S1x256, .f32⟩
  | .hbm, ⟨60, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S2000x256, .f32⟩
  | .local _ .vmem, ⟨5, _⟩ => ⟨S2000x256, .f32⟩
  | .local _ .vmem, ⟨6, _⟩ => ⟨S256x256, .f32⟩
  | .local _ .vmem, ⟨7, _⟩ => ⟨S256x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x256, .f32⟩
  | .local _ .vmem, ⟨16, _⟩ => ⟨S2000x256, .f32⟩
  | .local _ .vmem, ⟨17, _⟩ => ⟨S256x256, .f32⟩
  | .local _ .vmem, ⟨18, _⟩ => ⟨S256x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S300000x2_S300000x1_0_0 : S300000x2.Slices ![0, 0] S300000x1
  shapeCasts_S300000x1_S300000 : S300000x1.ShapeCasts S300000
  slices_S300000x2_S300000x1_0_1 : S300000x2.Slices ![0, 1] S300000x1
  bcast_S_S300000 : S_.BroadcastsInDim S300000 (![] : Fin 0 → Fin S300000.rank)
  bcast_S300000_S300000x1_0 : S300000.BroadcastsInDim S300000x1 (![0] : Fin 1 → Fin S300000x1.rank)
  bcast_S_S50000x256 : S_.BroadcastsInDim S50000x256 (![] : Fin 0 → Fin S50000x256.rank)
  bcast_S_S50000 : S_.BroadcastsInDim S50000 (![] : Fin 0 → Fin S50000.rank)
  transposes_S256x256_S256x256_1_0 : S256x256.Transposes [1, 0] S256x256
  shapeCasts_S50000_S50000x1 : S50000.ShapeCasts S50000x1
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S2000x1_S2000x256 : S2000x1.Broadcasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  scatter_S50000_S300000x1_S300000_n_0_0_1_wf : ScatterDims.WF S50000 S300000x1 S300000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v13) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x256 : Shape := ⟨2, ![50000, 256]⟩
abbrev S300000x2 : Shape := ⟨2, ![300000, 2]⟩
abbrev S256x256 : Shape := ⟨2, ![256, 256]⟩
abbrev S256 : Shape := ⟨1, ![256]⟩
abbrev S300000x1 : Shape := ⟨2, ![300000, 1]⟩
abbrev S300000 : Shape := ⟨1, ![300000]⟩
abbrev S_ : Shape := ⟨0, ![]⟩
abbrev S300000x256 : Shape := ⟨2, ![300000, 256]⟩
abbrev S50000 : Shape := ⟨1, ![50000]⟩
abbrev S50000x1 : Shape := ⟨2, ![50000, 1]⟩
abbrev S1x256 : Shape := ⟨2, ![1, 256]⟩

abbrev nBuf : Space → Nat
  | .hbm => 79
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S300000x2, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S300000x1, .i32⟩
  | .hbm, ⟨10, _⟩ => ⟨S300000, .i32⟩
  | .hbm, ⟨11, _⟩ => ⟨S300000x1, .i32⟩
  | .hbm, ⟨12, _⟩ => ⟨S300000, .i32⟩
  | .hbm, ⟨13, _⟩ => ⟨S_, .i32⟩
  | .hbm, ⟨14, _⟩ => ⟨S300000, .i32⟩
  | .hbm, ⟨15, _⟩ => ⟨S300000, .i1⟩
  | .hbm, ⟨16, _⟩ => ⟨S_, .i32⟩
  | .hbm, ⟨17, _⟩ => ⟨S300000, .i32⟩
  | .hbm, ⟨18, _⟩ => ⟨S300000, .i32⟩
  | .hbm, ⟨19, _⟩ => ⟨S300000, .i32⟩
  | .hbm, ⟨20, _⟩ => ⟨S300000x1, .i32⟩
  | .hbm, ⟨21, _⟩ => ⟨S300000x256, .f32⟩
  | .hbm, ⟨22, _⟩ => ⟨S_, .f32⟩
  | .hbm, ⟨23, _⟩ => ⟨S50000x256, .f32⟩
  | .hbm, ⟨24, _⟩ => ⟨S300000x1, .i32⟩
  | .hbm, ⟨25, _⟩ => ⟨S50000x256, .f32⟩
  | .hbm, ⟨26, _⟩ => ⟨S_, .f32⟩
  | .hbm, ⟨27, _⟩ => ⟨S300000, .f32⟩
  | .hbm, ⟨28, _⟩ => ⟨S_, .f32⟩
  | .hbm, ⟨29, _⟩ => ⟨S50000, .f32⟩
  | .hbm, ⟨30, _⟩ => ⟨S300000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x256, .f32⟩
  | .hbm, ⟨37, _⟩ => ⟨S50000x256, .f32⟩
  | .hbm, ⟨38, _⟩ => ⟨S256x256, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S256x256, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S300000, .i32⟩
  | .hbm, ⟨48, _⟩ => ⟨S300000, .i1⟩
  | .hbm, ⟨49, _⟩ => ⟨S_, .i32⟩
  | .hbm, ⟨50, _⟩ => ⟨S300000, .i32⟩
  | .hbm, ⟨51, _⟩ => ⟨S300000, .i32⟩
  | .hbm, ⟨52, _⟩ => ⟨S300000, .i32⟩
  | .hbm, ⟨53, _⟩ => ⟨S300000x1, .i32⟩
  | .hbm, ⟨54, _⟩ => ⟨S300000x256, .f32⟩
  | .hbm, ⟨55, _⟩ => ⟨S_, .f32⟩
  | .hbm, ⟨56, _⟩ => ⟨S50000x256, .f32⟩
  | .hbm, ⟨57, _⟩ => ⟨S300000x1, .i32⟩
  | .hbm, ⟨58, _⟩ => ⟨S50000x256, .f32⟩
  | .hbm, ⟨59, _⟩ => ⟨S_, .f32⟩
  | .hbm, ⟨60, _⟩ => ⟨S300000, .f32⟩
  | .hbm, ⟨61, _⟩ => ⟨S_, .f32⟩
  | .hbm, ⟨62, _⟩ => ⟨S50000, .f32⟩
  | .hbm, ⟨63, _⟩ => ⟨S300000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S256x256, .f32⟩
  | .hbm, ⟨72, _⟩ => ⟨S50000x256, .f32⟩
  | .hbm, ⟨73, _⟩ => ⟨S1x256, .f32⟩
  | .hbm, ⟨74, _⟩ => ⟨S50000x256, .f32⟩
  | .hbm, ⟨75, _⟩ => ⟨S50000x256, .f32⟩
  | .hbm, ⟨76, _⟩ => ⟨S256x256, .f32⟩
  | .hbm, ⟨77, _⟩ => ⟨S50000x256, .f32⟩
  | .hbm, ⟨78, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]

class Facts₀ : Prop where
  slices_S300000x2_S300000x1_0_0 : S300000x2.Slices ![0, 0] S300000x1
  shapeCasts_S300000x1_S300000 : S300000x1.ShapeCasts S300000
  slices_S300000x2_S300000x1_0_1 : S300000x2.Slices ![0, 1] S300000x1
  bcast_S_S300000 : S_.BroadcastsInDim S300000 (![] : Fin 0 → Fin S300000.rank)
  bcast_S300000_S300000x1_0 : S300000.BroadcastsInDim S300000x1 (![0] : Fin 1 → Fin S300000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  scatter_S50000_S300000x1_S300000_n_0_0_1_wf : ScatterDims.WF S50000 S300000x1 S300000 [] [0] [0] 1
  dot_S50000x256_S256x256_S50000x256_1_0_0_1_n_n_wf : DotDims.WF S50000x256 S256x256 S50000x256 [1] [0] [0] [1] [] []

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«164971_j48198122995902_1_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«164971_j48198122995902_1_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibMeanConv.lean ====
/-
  One mean-aggregation graph convolution over the extended reals, as a whole-array function of its operands.
  From the per-node sums `S` of neighbours' feature rows and the per-node neighbour counts, every row of `S` is
  divided by its count, the count raised to at least one; the result goes through a weight matrix, the node's own
  features through a second one, and a bias row is laid along every row. The two programs add the three terms in
  different orders, (A + C) + b against (A + b) + C: sums of extended reals commute and associate
  everywhere, so the two arrangements agree with no finiteness assumed. Row `p` of the result depends only on rows
  `p` of `S`, of the counts and of the features: a block of consecutive rows of the result is the same function of
  those blocks of rows. No program is mentioned here.
-/
import proofs.«164971_j48198122995902_1_alg».proof.Proof.LibRowBlocks

noncomputable section

namespace Cert.MeanConv

open Idealize.ShloMosaic Idealize.ShloMosaic.ValueIdx Cert.LayoutLib Cert.DenseLib Cert.RowBlocks

/-- A rank-two array of extended reals. -/
abbrev Mat (a b : ℕ) : Type := (⟨2, ![a, b]⟩ : Shape).Idx → EReal
/-- A vector of extended reals. -/
abbrev Vc (a : ℕ) : Type := (⟨1, ![a]⟩ : Shape).Idx → EReal

/-- The number one, as the float pattern both programs spell it with. -/
def one : EReal := Ideal.ofBits .f32 0x3F800000#32

variable {N K C : ℕ}

/-- Every row of `S` divided by that row's count, the count raised to at least one (the counts as a column). -/
def meanRows (S : Mat N K) (cnt : Mat N 1) : Mat N K :=
  fun i => Ideal.div (S i) (max (cnt (ix2 (n0 := N) (i 0) (0 : Fin 1))) one)

/-- The convolution with the bias added last: `(mean · Wl + X · Wr) + b`, the counts a column and the bias one row. -/
def conv (S X : Mat N K) (cnt : Mat N 1) (Wl Wr : Mat K C) (b : Mat 1 C) : Mat N C :=
  plus (plus (mm (meanRows S cnt) Wl) (mm X Wr)) (rows fun c => b (ix2 (0 : Fin 1) c))

/-- The convolution with the bias added before the own-feature term: `(mean · Wl + b) + X · Wr`. -/
def convBiasFirst (S X : Mat N K) (cnt : Mat N 1) (Wl Wr : Mat K C) (b : Mat 1 C) : Mat N C :=
  plus (plus (mm (meanRows S cnt) Wl) (rows fun c => b (ix2 (0 : Fin 1) c))) (mm X Wr)

/-- The two orders of the three terms agree: addition of extended reals is commutative and associative. -/
theorem convBiasFirst_eq_conv (S X : Mat N K) (cnt : Mat N 1) (Wl Wr : Mat K C) (b : Mat 1 C) :
    convBiasFirst S X cnt Wl Wr b = conv S X cnt Wl Wr b := by
  funext i
  show (mm (meanRows S cnt) Wl i + b (ix2 (0 : Fin 1) (i 1))) + mm X Wr i
    = (mm (meanRows S cnt) Wl i + mm X Wr i) + b (ix2 (0 : Fin 1) (i 1))
  exact add_right_comm _ _ _

/-- An entry of the mean is determined by its entry of `S` and its row's count. -/
theorem meanRows_eq_of_row {N' : ℕ} (S' : Mat N' K) (cnt' : Mat N' 1) (S : Mat N K) (cnt : Mat N 1)
    (j : (⟨2, ![N', K]⟩ : Shape).Idx) (i : (⟨2, ![N, K]⟩ : Shape).Idx)
    (hs : S' j = S i) (hc : cnt' (ix2 (n0 := N') (j 0) (0 : Fin 1)) = cnt (ix2 (n0 := N) (i 0) (0 : Fin 1))) :
    meanRows S' cnt' j = meanRows S cnt i := by
  show Ideal.div (S' j) (max (cnt' (ix2 (n0 := N') (j 0) (0 : Fin 1))) one)
    = Ideal.div (S i) (max (cnt (ix2 (n0 := N) (i 0) (0 : Fin 1))) one)
  rw [hs, hc]

/-- Row-locality of the convolution: if row `j 0` of the primed operands is row `i 0` of the unprimed ones, the
    weights and the bias agree and the columns are the same, the two results agree at `j` and `i`. -/
theorem conv_eq_of_row {N' : ℕ} (S' X' : Mat N' K) (cnt' : Mat N' 1) (Wl' Wr' : Mat K C) (b' : Mat 1 C)
    (S X : Mat N K) (cnt : Mat N 1) (Wl Wr : Mat K C) (b : Mat 1 C)
    (j : (⟨2, ![N', C]⟩ : Shape).Idx) (i : (⟨2, ![N, C]⟩ : Shape).Idx)
    (hwl : Wl' = Wl) (hwr : Wr' = Wr) (hb : b' = b) (hq : (j 1).val = (i 1).val)
    (hs : ∀ k : Fin K, S' (ix2 (n0 := N') (j 0) k) = S (ix2 (n0 := N) (i 0) k))
    (hx : ∀ k : Fin K, X' (ix2 (n0 := N') (j 0) k) = X (ix2 (n0 := N) (i 0) k))
    (hc : cnt' (ix2 (n0 := N') (j 0) (0 : Fin 1)) = cnt (ix2 (n0 := N) (i 0) (0 : Fin 1))) :
    conv S' X' cnt' Wl' Wr' b' j = conv S X cnt Wl Wr b i := by
  subst hb
  show (mm (meanRows S' cnt') Wl' j + mm X' Wr' j) + b' (ix2 (0 : Fin 1) (j 1))
    = (mm (meanRows S cnt) Wl i + mm X Wr i) + b' (ix2 (0 : Fin 1) (i 1))
  have e : (j 1 : Fin C) = (i 1 : Fin C) := Fin.ext hq
  rw [mm_eq_of_row (meanRows S' cnt') Wl' (meanRows S cnt) Wl j i hwl hq (fun k =>
        meanRows_eq_of_row S' cnt' S cnt _ _ (hs k) hc),
      mm_eq_of_row X' Wr' X Wr j i hwr hq hx, e]

end Cert.MeanConv

end
-- ==== Proof.LibMeanConvForms.lean ====
/-
  The mean-aggregation convolution in the two spellings programs give it, each equal to the whole-array function
  `conv` (or its bias-first arrangement) over the extended reals, at any sizes. A vector unit divides a block of
  sums by its column of counts raised to one and broadcast along the rows, narrows both products' operands to a
  shorter float format (the identity on extended reals), accumulates each product into a zero splat, adds the two
  and then the bias row broadcast down the rows. A host program raises the count VECTOR to one, broadcasts it to
  a column and along the rows, divides, and spells the products as general dots with one contracted axis and the
  bias as a vector broadcast in two steps, added before the second product. The host's count vector and bias vector
  are the vector unit's count column and bias row recast. No program is mentioned.
-/
import proofs.«164971_j48198122995902_1_alg».proof.Proof.LibMeanConv

noncomputable section

namespace Cert.MeanConv

open Idealize.ShloMosaic Idealize.ShloMosaic.ValueIdx Cert.LayoutLib Cert.DenseLib Cert.RowBlocks

variable {N K C : ℕ}

/-- A block of sums divided by its column of counts, each raised to at least one and broadcast along the rows. -/
theorem divf_broadcastTo_eq_meanRows (hb : (⟨2, ![N, 1]⟩ : Shape).Broadcasts ⟨2, ![N, K]⟩)
    (S : FVec Ideal ⟨2, ![N, K]⟩ .f32) (cnt : FVec Ideal ⟨2, ![N, 1]⟩ .f32) :
    divf S (broadcastTo ⟨2, ![N, K]⟩
      (maximumf cnt (broadcast ⟨2, ![N, 1]⟩ (Scalar.ofBits (F := Ideal) .f32 0x3F800000#32))) hb) = meanRows S cnt := by
  funext i
  obtain ⟨p, k, rfl⟩ : ∃ (p : Fin N) (k : Fin K), i = ix2 p k := ⟨i 0, i 1, eq_ix2 i⟩
  show Ideal.div (S (ix2 p k)) (broadcastTo ⟨2, ![N, K]⟩
      (maximumf cnt (broadcast ⟨2, ![N, 1]⟩ (Scalar.ofBits (F := Ideal) .f32 0x3F800000#32))) hb (ix2 p k))
    = Ideal.div (S (ix2 p k)) (max (cnt (ix2 p (0 : Fin 1))) one)
  rw [broadcastTo_col_apply]
  rfl

/-- THE VECTOR UNIT'S SPELLING is `conv`. -/
theorem conv_of_vector_unit (D : DotDims ⟨2, ![N, K]⟩ ⟨2, ![K, C]⟩ ⟨2, ![N, C]⟩) (hD : D = DotDims.plain N K C)
    (hb : (⟨2, ![N, 1]⟩ : Shape).Broadcasts ⟨2, ![N, K]⟩) (hr : (⟨2, ![1, C]⟩ : Shape).Broadcasts ⟨2, ![N, C]⟩)
    (hlt : FTy.bf16.bits < FTy.f32.bits)
    (S X : FVec Ideal ⟨2, ![N, K]⟩ .f32) (cnt : FVec Ideal ⟨2, ![N, 1]⟩ .f32)
    (Wl Wr : FVec Ideal ⟨2, ![K, C]⟩ .f32) (b : FVec Ideal ⟨2, ![1, C]⟩ .f32) :
    addf (addf
        (matmul D none (truncf .bf16 (divf S (broadcastTo ⟨2, ![N, K]⟩
          (maximumf cnt (broadcast ⟨2, ![N, 1]⟩ (Scalar.ofBits (F := Ideal) .f32 0x3F800000#32))) hb)) hlt)
          (truncf .bf16 Wl hlt) (constant ⟨2, ![N, C]⟩ .f32 0x00000000#32))
        (matmul D none (truncf .bf16 X hlt) (truncf .bf16 Wr hlt) (constant ⟨2, ![N, C]⟩ .f32 0x00000000#32)))
      (broadcastTo ⟨2, ![N, C]⟩ b hr)
    = conv S X cnt Wl Wr b := by
  rw [matmul_eq_mm D hD, matmul_eq_mm D hD, broadcastTo_eq_rows, divf_broadcastTo_eq_meanRows]
  rfl

/-- The host's divisor — the count vector raised to one, broadcast to a column and along the rows — under the host's
    division is the mean with the counts recast as a column. -/
theorem hostDivf_eq_meanRows
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2))
    (hc : (⟨1, ![N]⟩ : Shape).ShapeCasts ⟨2, ![N, 1]⟩)
    (S : FVec Ideal ⟨2, ![N, K]⟩ .f32) (cnt : FVec Ideal ⟨1, ![N]⟩ .f32) :
    Host.divf S (broadcastInDim ⟨2, ![N, K]⟩ ![0, 1] h2 (broadcastInDim ⟨2, ![N, 1]⟩ ![0] h1
      (maximumf cnt (broadcastInDim ⟨1, ![N]⟩ ![] h0 (constant (F := Ideal) ⟨0, ![]⟩ .f32 0x3F800000#32)))))
    = meanRows S (shapeCast ⟨2, ![N, 1]⟩ cnt hc) := by
  funext i
  obtain ⟨p, k, rfl⟩ : ∃ (p : Fin N) (k : Fin K), i = ix2 p k := ⟨i 0, i 1, eq_ix2 i⟩
  show Ideal.div (S (ix2 p k)) (broadcastInDim ⟨2, ![N, K]⟩ ![0, 1] h2 (broadcastInDim ⟨2, ![N, 1]⟩ ![0] h1
      (maximumf cnt (broadcastInDim ⟨1, ![N]⟩ ![] h0 (constant (F := Ideal) ⟨0, ![]⟩ .f32 0x3F800000#32)))) (ix2 p k))
    = Ideal.div (S (ix2 p k)) (max (shapeCast ⟨2, ![N, 1]⟩ cnt hc (ix2 p (0 : Fin 1))) one)
  rw [broadcastInDim_col_apply, broadcastInDim_vecCol_apply, shapeCast_col_apply]
  show Ideal.div (S (ix2 p k)) (max (cnt (ix1 p))
      (broadcastInDim ⟨1, ![N]⟩ ![] h0 (constant (F := Ideal) ⟨0, ![]⟩ .f32 0x3F800000#32) (ix1 p))) = _
  rw [broadcastInDim_scalar_apply]
  rfl

/-- A bias vector broadcast to one row and down the rows lays the recast bias row along every row. -/
theorem broadcastInDim_eq_rows_cast {M : ℕ} (b : FVec Ideal ⟨1, ![C]⟩ .f32)
    (h3 : (⟨1, ![C]⟩ : Shape).BroadcastsInDim ⟨2, ![1, C]⟩ (![1] : Fin 1 → Fin 2))
    (h4 : (⟨2, ![1, C]⟩ : Shape).BroadcastsInDim ⟨2, ![M, C]⟩ (![0, 1] : Fin 2 → Fin 2))
    (hr : (⟨1, ![C]⟩ : Shape).ShapeCasts ⟨2, ![1, C]⟩) :
    broadcastInDim ⟨2, ![M, C]⟩ ![0, 1] h4 (broadcastInDim ⟨2, ![1, C]⟩ ![1] h3 b)
      = rows (M := M) fun c => shapeCast ⟨2, ![1, C]⟩ b hr (ix2 (0 : Fin 1) c) := by
  rw [broadcastInDim_eq_rows]
  exact congrArg (rows (M := M)) (funext fun c => (shapeCast_vecRow_apply b hr 0 c).symm)

/-- THE HOST'S SPELLING is the bias-first arrangement, hence `conv`, with the count vector and the bias vector recast
    as a column and a row. -/
theorem conv_of_host (D : DotDims ⟨2, ![N, K]⟩ ⟨2, ![K, C]⟩ ⟨2, ![N, C]⟩) (hD : D = DotDims.plain N K C)
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2))
    (h3 : (⟨1, ![C]⟩ : Shape).BroadcastsInDim ⟨2, ![1, C]⟩ (![1] : Fin 1 → Fin 2))
    (h4 : (⟨2, ![1, C]⟩ : Shape).BroadcastsInDim ⟨2, ![N, C]⟩ (![0, 1] : Fin 2 → Fin 2))
    (hc : (⟨1, ![N]⟩ : Shape).ShapeCasts ⟨2, ![N, 1]⟩) (hr : (⟨1, ![C]⟩ : Shape).ShapeCasts ⟨2, ![1, C]⟩)
    (S X : FVec Ideal ⟨2, ![N, K]⟩ .f32) (cnt : FVec Ideal ⟨1, ![N]⟩ .f32)
    (Wl Wr : FVec Ideal ⟨2, ![K, C]⟩ .f32) (b : FVec Ideal ⟨1, ![C]⟩ .f32) :
    addf (addf
        (Host.dotGeneral D none (Host.divf S (broadcastInDim ⟨2, ![N, K]⟩ ![0, 1] h2 (broadcastInDim ⟨2, ![N, 1]⟩ ![0] h1
          (maximumf cnt (broadcastInDim ⟨1, ![N]⟩ ![] h0 (constant (F := Ideal) ⟨0, ![]⟩ .f32 0x3F800000#32)))))) Wl)
        (broadcastInDim ⟨2, ![N, C]⟩ ![0, 1] h4 (broadcastInDim ⟨2, ![1, C]⟩ ![1] h3 b)))
      (Host.dotGeneral D none X Wr)
    = conv S X (shapeCast ⟨2, ![N, 1]⟩ cnt hc) Wl Wr (shapeCast ⟨2, ![1, C]⟩ b hr) := by
  rw [dotGeneral_eq_mm D hD, dotGeneral_eq_mm D hD, broadcastInDim_eq_rows_cast b h3 h4 hr,
    hostDivf_eq_meanRows h0 h1 h2 hc]
  exact convBiasFirst_eq_conv S X (shapeCast ⟨2, ![N, 1]⟩ cnt hc) Wl Wr (shapeCast ⟨2, ![1, C]⟩ b hr)

end Cert.MeanConv

end
-- ==== Proof.Region0.lean ====
/-
  Region 0 of the kernel program as one function of the arrays it is entered with, over the extended reals.
  The grid has 25 points; point `t` is handed rows `2000 t … 2000 t + 1999` of the per-node sums, of the count
  column and of the node features, and the two weight matrices and the bias row whole. The body stores the
  mean-aggregation convolution of the blocks it loaded. Since row `p` of the convolution depends only on rows
  `p` of its row-blocked operands, what point `t` writes back is rows `2000 t … 2000 t + 1999` of the
  convolution of the WHOLE arrays; the 25 blocks tile the result array, which therefore ends holding that
  convolution.
-/
import proofs.«164971_j48198122995902_1_alg».proof.Proof.LibMeanConvForms
import proofs.«164971_j48198122995902_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Cert.MeanConv Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The body's stored block is the convolution of the blocks it loaded. -/
theorem stored_eq (x0 : Vec Ideal S2000x256 .f32) (x1 : Vec Ideal S2000x1 .f32) (x2 : Vec Ideal S2000x256 .f32)
    (x3 x4 : Vec Ideal S256x256 .f32) (x5 : Vec Ideal S1x256 .f32) :
    out0_6 (F := Ideal) x0 x1 x2 x3 x4 x5 = conv x0 x2 x1 x3 x4 x5 := by
  unfold out0_6
  rw [View.canon_unit_zero hz]
  simp only [View.ld_unit_zero (S := S2000x256) hz, View.ld_unit_zero (S := S2000x1) hz,
    View.ld_unit_zero (S := S256x256) hz, View.ld_unit_zero (S := S1x256) hz]
  unfold k0_pay1
  simp only [shapeCast_self]
  exact conv_of_vector_unit _ rfl _ _ _ x0 x2 x1 x3 x4 x5

/-- The printed index maps, decided over the grid: the row-blocked windows are at block row `t`, block column 0;
    the weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The convolution of the arrays the region is entered with. -/
abbrev whole (c : Dev nD) : S50000x256.Idx → Elt Ideal .f32 :=
  conv (N := 50000) (K := 256) (C := 256) (V c main_v13) (V c main_arg0) (V c main_v20) (V c main_v18) (V c main_v19) (V c main_v21)

/-- At point `t`, entry `y` of the convolution of the point's blocks is the entry of the whole convolution that
    the output block's rectangle places `y` at. -/
theorem point_eq (c : Dev nD) (t : Fin cfg0.N) (y : S2000x256.Idx) :
    conv (N := 2000) (K := 256) (C := 256) (iblk0 V c 0 t) (iblk0 V c 2 t) (iblk0 V c 1 t) (iblk0 V c 3 t) (iblk0 V c 4 t) (iblk0 V c 5 t) y
      = whole V c (((cfg0.win 6).blk t).view.emb y) := by
  obtain ⟨e00, e01, e10, e11, e20, e21, e30, e31, e40, e41, e50, e51, e60, e61⟩ := idx_facts t
  have hy0 : (y 0).val < 2000 := (y 0).isLt
  have hy1 : (y 1).val < 256 := (y 1).isLt
  have ht : t.val < 25 := t.isLt
  refine conv_eq_of_row _ _ _ _ _ _ _ _ _ _ _ _ y _ ?_ ?_ ?_ ?_ ?_ ?_ ?_
  · -- the left weight matrix is staged whole
    funext z
    show V c main_v18 (((cfg0.win 3).blk t).view.emb z) = V c main_v18 z
    refine congrArg _ (funext fun a => Fin.ext ?_)
    match a with
    | ⟨0, _⟩ => show win0_3.index t (0 : Fin 2) * 256 + 1 * (z 0).val = (z 0).val; omega
    | ⟨1, _⟩ => show win0_3.index t (1 : Fin 2) * 256 + 1 * (z 1).val = (z 1).val; omega
  · -- the right weight matrix is staged whole
    funext z
    show V c main_v19 (((cfg0.win 4).blk t).view.emb z) = V c main_v19 z
    refine congrArg _ (funext fun a => Fin.ext ?_)
    match a with
    | ⟨0, _⟩ => show win0_4.index t (0 : Fin 2) * 256 + 1 * (z 0).val = (z 0).val; omega
    | ⟨1, _⟩ => show win0_4.index t (1 : Fin 2) * 256 + 1 * (z 1).val = (z 1).val; omega
  · -- the bias row is staged whole
    funext z
    show V c main_v21 (((cfg0.win 5).blk t).view.emb z) = V c main_v21 z
    refine congrArg _ (funext fun a => Fin.ext ?_)
    match a with
    | ⟨0, _⟩ => show win0_5.index t (0 : Fin 2) * 1 + 1 * (z 0).val = (z 0).val; omega
    | ⟨1, _⟩ => show win0_5.index t (1 : Fin 2) * 256 + 1 * (z 1).val = (z 1).val; omega
  · -- the column is the block's own
    show (y 1).val = win0_6.index t (1 : Fin 2) * 256 + 1 * (y 1).val
    omega
  · -- the sums' block row is the output's
    intro k
    show V c main_v13 (((cfg0.win 0).blk t).view.emb (ix2 (y 0) k)) = V c main_v13 (ix2 ((((cfg0.win 6).blk t).view.emb y) 0) k)
    refine congrArg _ (funext fun a => Fin.ext ?_)
    match a with
    | ⟨0, _⟩ => show win0_0.index t (0 : Fin 2) * 2000 + 1 * (y 0).val = win0_6.index t (0 : Fin 2) * 2000 + 1 * (y 0).val; omega
    | ⟨1, _⟩ => show win0_0.index t (1 : Fin 2) * 256 + 1 * k.val = k.val; omega
  · -- the features' block row is the output's
    intro k
    show V c main_arg0 (((cfg0.win 2).blk t).view.emb (ix2 (y 0) k)) = V c main_arg0 (ix2 ((((cfg0.win 6).blk t).view.emb y) 0) k)
    refine congrArg _ (funext fun a => Fin.ext ?_)
    match a with
    | ⟨0, _⟩ => show win0_2.index t (0 : Fin 2) * 2000 + 1 * (y 0).val = win0_6.index t (0 : Fin 2) * 2000 + 1 * (y 0).val; omega
    | ⟨1, _⟩ => show win0_2.index t (1 : Fin 2) * 256 + 1 * k.val = k.val; omega
  · -- the counts' block row is the output's
    show V c main_v20 (((cfg0.win 1).blk t).view.emb (ix2 (y 0) (0 : Fin 1))) = V c main_v20 (ix2 ((((cfg0.win 6).blk t).view.emb y) 0) (0 : Fin 1))
    refine congrArg _ (funext fun a => Fin.ext ?_)
    match a with
    | ⟨0, _⟩ => show win0_1.index t (0 : Fin 2) * 2000 + 1 * (y 0).val = win0_6.index t (0 : Fin 2) * 2000 + 1 * (y 0).val; omega
    | ⟨1, _⟩ => show win0_1.index t (1 : Fin 2) * 1 + 1 * 0 = 0; omega

/-- WHAT POINT `t` WRITES BACK is block `t` of the whole convolution. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6, stored_eq]
  funext j
  exact point_eq V c t j

/-- An index of the result array is in point `t`'s block iff each coordinate is in the block's range on its axis. -/
theorem mem_blk (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v22).slice (win0_6.rect t)).set ↔ _
  rw [View.set_slice_whole, Rect.mem_set_unit]
  exact Iff.rfl

/-- Every index of the result array is in the block of the point its row falls in: row `r` is in block `r / 2000`. -/
theorem cover (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  have hlt : (i 0).val / 2000 < cfg0.N := by
    show (i 0).val / 2000 < grid0.N
    rw [N_0]; omega
  obtain ⟨e00, e01, e10, e11, e20, e21, e30, e31, e40, e41, e50, e51, e60, e61⟩ := idx_facts ⟨(i 0).val / 2000, hlt⟩
  refine ⟨⟨(i 0).val / 2000, hlt⟩, flush0_6 _, ?_⟩
  rw [mem_blk]
  intro a
  match a with
  | ⟨0, _⟩ =>
    show win0_6.index ⟨(i 0).val / 2000, hlt⟩ (0 : Fin 2) * 2000 ≤ (i 0).val ∧ (i 0).val < win0_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win0_6.index ⟨(i 0).val / 2000, hlt⟩ (1 : Fin 2) * 256 ≤ (i 1).val ∧ (i 1).val < win0_6.index ⟨(i 0).val / 2000, hlt⟩ (1 : Fin 2) * 256 + 256
    rw [e61]
    omega

/-- THE RESULT ARRAY after the region: the convolution of the arrays the region was entered with. -/
theorem final (c : Dev nD) : (dat0 V c).arrAt 6 cfg0.N = whole V c :=
  (dat0 V c).arrAt_eq_of_cover 6 (whole V c) (fun t _ => flushed_eq V c t) cover

end Cert.KernelIdeal.Region0

end
-- ==== Proof.Region1.lean ====
/-
  Region 1 of the kernel program as one function of the arrays it is entered with, over the extended reals.
  The grid has 25 points; point `t` is handed rows `2000 t … 2000 t + 1999` of the per-node sums, of the count
  column and of the node features, and the two weight matrices and the bias row whole. The body stores the
  mean-aggregation convolution of the blocks it loaded. Since row `p` of the convolution depends only on rows
  `p` of its row-blocked operands, what point `t` writes back is rows `2000 t … 2000 t + 1999` of the
  convolution of the WHOLE arrays; the 25 blocks tile the result array, which therefore ends holding that
  convolution.
-/
import proofs.«164971_j48198122995902_1_alg».proof.Proof.LibMeanConvForms
import proofs.«164971_j48198122995902_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Cert.MeanConv Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The body's stored block is the convolution of the blocks it loaded. -/
theorem stored_eq (x0 : Vec Ideal S2000x256 .f32) (x1 : Vec Ideal S2000x1 .f32) (x2 : Vec Ideal S2000x256 .f32)
    (x3 x4 : Vec Ideal S256x256 .f32) (x5 : Vec Ideal S1x256 .f32) :
    out1_6 (F := Ideal) x0 x1 x2 x3 x4 x5 = conv x0 x2 x1 x3 x4 x5 := by
  unfold out1_6
  rw [View.canon_unit_zero hz]
  simp only [View.ld_unit_zero (S := S2000x256) hz, View.ld_unit_zero (S := S2000x1) hz,
    View.ld_unit_zero (S := S256x256) hz, View.ld_unit_zero (S := S1x256) hz]
  unfold k1_pay1
  simp only [shapeCast_self]
  exact conv_of_vector_unit _ rfl _ _ _ x0 x2 x1 x3 x4 x5

/-- The printed index maps, decided over the grid: the row-blocked windows are at block row `t`, block column 0;
    the weights and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The convolution of the arrays the region is entered with. -/
abbrev whole (c : Dev nD) : S50000x256.Idx → Elt Ideal .f32 :=
  conv (N := 50000) (K := 256) (C := 256) (V c main_v32) (V c main_arg1) (V c main_v39) (V c main_v37) (V c main_v38) (V c main_v40)

/-- At point `t`, entry `y` of the convolution of the point's blocks is the entry of the whole convolution that
    the output block's rectangle places `y` at. -/
theorem point_eq (c : Dev nD) (t : Fin cfg1.N) (y : S2000x256.Idx) :
    conv (N := 2000) (K := 256) (C := 256) (iblk1 V c 0 t) (iblk1 V c 2 t) (iblk1 V c 1 t) (iblk1 V c 3 t) (iblk1 V c 4 t) (iblk1 V c 5 t) y
      = whole V c (((cfg1.win 6).blk t).view.emb y) := by
  obtain ⟨e00, e01, e10, e11, e20, e21, e30, e31, e40, e41, e50, e51, e60, e61⟩ := idx_facts t
  have hy0 : (y 0).val < 2000 := (y 0).isLt
  have hy1 : (y 1).val < 256 := (y 1).isLt
  have ht : t.val < 25 := t.isLt
  refine conv_eq_of_row _ _ _ _ _ _ _ _ _ _ _ _ y _ ?_ ?_ ?_ ?_ ?_ ?_ ?_
  · -- the left weight matrix is staged whole
    funext z
    show V c main_v37 (((cfg1.win 3).blk t).view.emb z) = V c main_v37 z
    refine congrArg _ (funext fun a => Fin.ext ?_)
    match a with
    | ⟨0, _⟩ => show win1_3.index t (0 : Fin 2) * 256 + 1 * (z 0).val = (z 0).val; omega
    | ⟨1, _⟩ => show win1_3.index t (1 : Fin 2) * 256 + 1 * (z 1).val = (z 1).val; omega
  · -- the right weight matrix is staged whole
    funext z
    show V c main_v38 (((cfg1.win 4).blk t).view.emb z) = V c main_v38 z
    refine congrArg _ (funext fun a => Fin.ext ?_)
    match a with
    | ⟨0, _⟩ => show win1_4.index t (0 : Fin 2) * 256 + 1 * (z 0).val = (z 0).val; omega
    | ⟨1, _⟩ => show win1_4.index t (1 : Fin 2) * 256 + 1 * (z 1).val = (z 1).val; omega
  · -- the bias row is staged whole
    funext z
    show V c main_v40 (((cfg1.win 5).blk t).view.emb z) = V c main_v40 z
    refine congrArg _ (funext fun a => Fin.ext ?_)
    match a with
    | ⟨0, _⟩ => show win1_5.index t (0 : Fin 2) * 1 + 1 * (z 0).val = (z 0).val; omega
    | ⟨1, _⟩ => show win1_5.index t (1 : Fin 2) * 256 + 1 * (z 1).val = (z 1).val; omega
  · -- the column is the block's own
    show (y 1).val = win1_6.index t (1 : Fin 2) * 256 + 1 * (y 1).val
    omega
  · -- the sums' block row is the output's
    intro k
    show V c main_v32 (((cfg1.win 0).blk t).view.emb (ix2 (y 0) k)) = V c main_v32 (ix2 ((((cfg1.win 6).blk t).view.emb y) 0) k)
    refine congrArg _ (funext fun a => Fin.ext ?_)
    match a with
    | ⟨0, _⟩ => show win1_0.index t (0 : Fin 2) * 2000 + 1 * (y 0).val = win1_6.index t (0 : Fin 2) * 2000 + 1 * (y 0).val; omega
    | ⟨1, _⟩ => show win1_0.index t (1 : Fin 2) * 256 + 1 * k.val = k.val; omega
  · -- the features' block row is the output's
    intro k
    show V c main_arg1 (((cfg1.win 2).blk t).view.emb (ix2 (y 0) k)) = V c main_arg1 (ix2 ((((cfg1.win 6).blk t).view.emb y) 0) k)
    refine congrArg _ (funext fun a => Fin.ext ?_)
    match a with
    | ⟨0, _⟩ => show win1_2.index t (0 : Fin 2) * 2000 + 1 * (y 0).val = win1_6.index t (0 : Fin 2) * 2000 + 1 * (y 0).val; omega
    | ⟨1, _⟩ => show win1_2.index t (1 : Fin 2) * 256 + 1 * k.val = k.val; omega
  · -- the counts' block row is the output's
    show V c main_v39 (((cfg1.win 1).blk t).view.emb (ix2 (y 0) (0 : Fin 1))) = V c main_v39 (ix2 ((((cfg1.win 6).blk t).view.emb y) 0) (0 : Fin 1))
    refine congrArg _ (funext fun a => Fin.ext ?_)
    match a with
    | ⟨0, _⟩ => show win1_1.index t (0 : Fin 2) * 2000 + 1 * (y 0).val = win1_6.index t (0 : Fin 2) * 2000 + 1 * (y 0).val; omega
    | ⟨1, _⟩ => show win1_1.index t (1 : Fin 2) * 1 + 1 * 0 = 0; omega

/-- WHAT POINT `t` WRITES BACK is block `t` of the whole convolution. -/
theorem flushed_eq (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6, stored_eq]
  funext j
  exact point_eq V c t j

/-- An index of the result array is in point `t`'s block iff each coordinate is in the block's range on its axis. -/
theorem mem_blk (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v41).slice (win1_6.rect t)).set ↔ _
  rw [View.set_slice_whole, Rect.mem_set_unit]
  exact Iff.rfl

/-- Every index of the result array is in the block of the point its row falls in: row `r` is in block `r / 2000`. -/
theorem cover (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  have hlt : (i 0).val / 2000 < cfg1.N := by
    show (i 0).val / 2000 < grid1.N
    rw [N_1]; omega
  obtain ⟨e00, e01, e10, e11, e20, e21, e30, e31, e40, e41, e50, e51, e60, e61⟩ := idx_facts ⟨(i 0).val / 2000, hlt⟩
  refine ⟨⟨(i 0).val / 2000, hlt⟩, flush1_6 _, ?_⟩
  rw [mem_blk]
  intro a
  match a with
  | ⟨0, _⟩ =>
    show win1_6.index ⟨(i 0).val / 2000, hlt⟩ (0 : Fin 2) * 2000 ≤ (i 0).val ∧ (i 0).val < win1_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win1_6.index ⟨(i 0).val / 2000, hlt⟩ (1 : Fin 2) * 256 ≤ (i 1).val ∧ (i 1).val < win1_6.index ⟨(i 0).val / 2000, hlt⟩ (1 : Fin 2) * 256 + 256
    rw [e61]
    omega

/-- THE RESULT ARRAY after the region: the convolution of the arrays the region was entered with. -/
theorem final (c : Dev nD) : (dat1 V c).arrAt 6 cfg1.N = whole V c :=
  (dat1 V c).arrAt_eq_of_cover 6 (whole V c) (fun t _ => flushed_eq V c t) cover

end Cert.KernelIdeal.Region1

end
-- ==== Proof.Entry.lean ====
/-
  What the kernel program's two regions are entered with, and what its two result arrays end holding, as
  functions of the argument arrays, over the extended reals.
  The host lines before region 0 cut the edge list into its column of start nodes (negative ones wrapped) and its
  column of end nodes, gather the start nodes' feature rows, add them up per end node (`summed`) and count the
  edges per end node (`counts`), transpose the two weight matrices and recast the counts as a column and the bias
  as a row. The host lines before region 1 do the same with the second feature array and the second set of
  weights, from the SAME two edge columns, which region 0 does not touch. Region 0's result array is not written
  after region 0, and region 1's is the last thing written: each ends holding the mean-aggregation convolution
  (`Cert.MeanConv.conv`) of those host terms.
-/
import proofs.«164971_j48198122995902_1_alg».proof.Proof.Region0
import proofs.«164971_j48198122995902_1_alg».proof.Proof.Region1
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Entry

open Cert.KernelIdeal Cert.KernelIdeal.Gen Cert.MeanConv Idealize.ShloMosaic.StableHlo

/-- The start nodes of the edges: column 0 of the edge list, as a vector. -/
def srcVec (e : IVec S300000x2 32) : IVec S300000 32 :=
  shapeCast _ (extractStridedSlice S300000x1 ![0, 0] e slices_S300000x2_S300000x1_0_0) shapeCasts_S300000x1_S300000

/-- The end nodes of the edges: column 1 of the edge list, as a vector. -/
def dstVec (e : IVec S300000x2 32) : IVec S300000 32 :=
  shapeCast _ (extractStridedSlice S300000x1 ![0, 1] e slices_S300000x2_S300000x1_0_1) shapeCasts_S300000x1_S300000

/-- Per end node, the sum of the feature rows of the start nodes of its edges (a negative start node counted from
    the end of the table). -/
def summed (x : FVec Ideal S50000x256 .f32) (s d : IVec S300000 32) : FVec Ideal S50000x256 .f32 :=
  Host.scatterAdd scatter_S50000x256_S300000x1_S300000x256_1_0_0_1
    (broadcastInDim S50000x256 ![] bcast_S_S50000x256 (constant S_ .f32 0x00000000#32))
    (broadcastInDim S300000x1 ![0] bcast_S300000_S300000x1_0 d)
    (Host.gather gather_S50000x256_S300000x1_S300000x256_1_0_n_n_0_1_1256 x
      (broadcastInDim S300000x1 ![0] bcast_S300000_S300000x1_0
        (select (cmpi .slt s (broadcastInDim S300000 ![] bcast_S_S300000 (constantI S_ 32 0#32)))
          (addi s (broadcastInDim S300000 ![] bcast_S_S300000 (constantI S_ 32 50000#32))) s)))

/-- Per end node, the number of its edges: ones added up. -/
def counts (d : IVec S300000 32) : FVec Ideal S50000 .f32 :=
  Host.scatterAdd scatter_S50000_S300000x1_S300000_n_0_0_1
    (broadcastInDim S50000 ![] bcast_S_S50000 (constant S_ .f32 0x00000000#32))
    (broadcastInDim S300000x1 ![0] bcast_S300000_S300000x1_0 d)
    (broadcastInDim S300000 ![] bcast_S_S300000 (constant S_ .f32 0x3F800000#32))

/-- One convolution of the program: from a feature array, the edge list, two weight matrices (one row per output
    feature, hence transposed) and a bias vector. -/
def result (x : FVec Ideal S50000x256 .f32) (e : IVec S300000x2 32) (wl : FVec Ideal S256x256 .f32)
    (b : FVec Ideal S256 .f32) (wr : FVec Ideal S256x256 .f32) : S50000x256.Idx → Elt Ideal .f32 :=
  conv (N := 50000) (K := 256) (C := 256) (summed x (srcVec e) (dstVec e)) x
    (shapeCast _ (counts (dstVec e)) shapeCasts_S50000_S50000x1)
    (transpose S256x256 [1, 0] wl transposes_S256x256_S256x256_1_0)
    (transpose S256x256 [1, 0] wr transposes_S256x256_S256x256_1_0)
    (shapeCast _ b shapeCasts_S256_S1x256)

variable (m : (ℓ : Loc nD τ sig) → Buf (Elt Ideal) ℓ) (ρ : Dev nD → PrngReg)

/-! ## Region 0's entry contents -/

theorem V1_sums (c : Dev nD) : V1 m ρ c main_v13
    = summed (m ((c : Thread nD τ).loc main_arg0)) (srcVec (m ((c : Thread nD τ).loc main_arg2))) (dstVec (m ((c : Thread nD τ).loc main_arg2))) := by
  show StableHlo.after hostOps0 (W0 m ρ c) (Proc.devRef .tc main_v13) = _
  after_results_simp <;> rfl

theorem V1_counts (c : Dev nD) : V1 m ρ c main_v20
    = shapeCast _ (counts (dstVec (m ((c : Thread nD τ).loc main_arg2)))) shapeCasts_S50000_S50000x1 := by
  show StableHlo.after hostOps0 (W0 m ρ c) (Proc.devRef .tc main_v20) = _
  after_results_simp <;> rfl

theorem V1_feats (c : Dev nD) : V1 m ρ c main_arg0 = m ((c : Thread nD τ).loc main_arg0) := by
  show StableHlo.after hostOps0 (W0 m ρ c) (Proc.devRef .tc main_arg0) = _
  after_results_simp <;> rfl

theorem V1_wl (c : Dev nD) : V1 m ρ c main_v18
    = transpose S256x256 [1, 0] (m ((c : Thread nD τ).loc main_arg3)) transposes_S256x256_S256x256_1_0 := by
  show StableHlo.after hostOps0 (W0 m ρ c) (Proc.devRef .tc main_v18) = _
  after_results_simp <;> rfl

theorem V1_wr (c : Dev nD) : V1 m ρ c main_v19
    = transpose S256x256 [1, 0] (m ((c : Thread nD τ).loc main_arg5)) transposes_S256x256_S256x256_1_0 := by
  show StableHlo.after hostOps0 (W0 m ρ c) (Proc.devRef .tc main_v19) = _
  after_results_simp <;> rfl

theorem V1_bias (c : Dev nD) : V1 m ρ c main_v21
    = shapeCast _ (m ((c : Thread nD τ).loc main_arg4)) shapeCasts_S256_S1x256 := by
  show StableHlo.after hostOps0 (W0 m ρ c) (Proc.devRef .tc main_v21) = _
  after_results_simp <;> rfl

/-! ## What region 0 leaves of the buffers the second stretch of host lines reads -/

theorem W2_src (c : Dev nD) : W2 m ρ c (Proc.devRef .tc main_v1) = srcVec (m ((c : Thread nD τ).loc main_arg2)) :=
  (W2_of_ne m ρ c main_v1 (by decide)).trans (by
    show StableHlo.after hostOps0 (W0 m ρ c) (Proc.devRef .tc main_v1) = _
    after_results_simp <;> rfl)

theorem W2_dst (c : Dev nD) : W2 m ρ c (Proc.devRef .tc main_v3) = dstVec (m ((c : Thread nD τ).loc main_arg2)) :=
  (W2_of_ne m ρ c main_v3 (by decide)).trans (by
    show StableHlo.after hostOps0 (W0 m ρ c) (Proc.devRef .tc main_v3) = _
    after_results_simp <;> rfl)

theorem W2_feats (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results_simp <;> rfl)

theorem W2_wl (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)

theorem W2_wr (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)

theorem W2_bias (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)

/-! ## Region 1's entry contents -/

theorem V3_sums (c : Dev nD) : V3 m ρ c main_v32
    = summed (m ((c : Thread nD τ).loc main_arg1)) (srcVec (m ((c : Thread nD τ).loc main_arg2))) (dstVec (m ((c : Thread nD τ).loc main_arg2))) := by
  rw [← W2_feats m ρ c, ← W2_src m ρ c, ← W2_dst m ρ c]
  show StableHlo.after hostOps1 (W2 m ρ c) (Proc.devRef .tc main_v32) = _
  after_results_simp <;> rfl

theorem V3_counts (c : Dev nD) : V3 m ρ c main_v39
    = shapeCast _ (counts (dstVec (m ((c : Thread nD τ).loc main_arg2)))) shapeCasts_S50000_S50000x1 := by
  rw [← W2_dst m ρ c]
  show StableHlo.after hostOps1 (W2 m ρ c) (Proc.devRef .tc main_v39) = _
  after_results_simp <;> rfl

theorem V3_feats (c : Dev nD) : V3 m ρ c main_arg1 = m ((c : Thread nD τ).loc main_arg1) := by
  rw [← W2_feats m ρ c]
  show StableHlo.after hostOps1 (W2 m ρ c) (Proc.devRef .tc main_arg1) = _
  after_results_simp <;> rfl

theorem V3_wl (c : Dev nD) : V3 m ρ c main_v37
    = transpose S256x256 [1, 0] (m ((c : Thread nD τ).loc main_arg6)) transposes_S256x256_S256x256_1_0 := by
  rw [← W2_wl m ρ c]
  show StableHlo.after hostOps1 (W2 m ρ c) (Proc.devRef .tc main_v37) = _
  after_results_simp <;> rfl

theorem V3_wr (c : Dev nD) : V3 m ρ c main_v38
    = transpose S256x256 [1, 0] (m ((c : Thread nD τ).loc main_arg8)) transposes_S256x256_S256x256_1_0 := by
  rw [← W2_wr m ρ c]
  show StableHlo.after hostOps1 (W2 m ρ c) (Proc.devRef .tc main_v38) = _
  after_results_simp <;> rfl

theorem V3_bias (c : Dev nD) : V3 m ρ c main_v40
    = shapeCast _ (m ((c : Thread nD τ).loc main_arg7)) shapeCasts_S256_S1x256 := by
  rw [← W2_bias m ρ c]
  show StableHlo.after hostOps1 (W2 m ρ c) (Proc.devRef .tc main_v40) = _
  after_results_simp <;> rfl

/-! ## The two result arrays at the end of the program -/

/-- The first result: written by region 0's write-backs only, then left alone. -/
theorem W4_first (c : Dev nD) : W4 m ρ c (Proc.devRef .tc main_v22)
    = result (m ((c : Thread nD τ).loc main_arg0)) (m ((c : Thread nD τ).loc main_arg2)) (m ((c : Thread nD τ).loc main_arg3))
        (m ((c : Thread nD τ).loc main_arg4)) (m ((c : Thread nD τ).loc main_arg5)) := by
  have e1 : W4 m ρ c (Proc.devRef .tc main_v22) = W3 m ρ c (Proc.devRef .tc main_v22) := W4_of_ne m ρ c main_v22 (by decide)
  have e2 : W3 m ρ c (Proc.devRef .tc main_v22) = W2 m ρ c (Proc.devRef .tc main_v22) := by
    show StableHlo.after hostOps1 (W2 m ρ c) (Proc.devRef .tc main_v22) = _
    after_results_simp <;> rfl
  have e3 : W2 m ρ c (Proc.devRef .tc main_v22) = (dat0 (V1 m ρ) c).arrAt 6 cfg0.N := W2_arr m ρ c 6
  rw [e1, e2, e3, Region0.final (V1 m ρ) c]
  unfold Region0.whole result
  rw [V1_sums, V1_counts, V1_feats, V1_wl, V1_wr, V1_bias]

/-- The second result: written by region 1's write-backs, the last thing the program does. -/
theorem W4_second (c : Dev nD) : W4 m ρ c (Proc.devRef .tc main_v41)
    = result (m ((c : Thread nD τ).loc main_arg1)) (m ((c : Thread nD τ).loc main_arg2)) (m ((c : Thread nD τ).loc main_arg6))
        (m ((c : Thread nD τ).loc main_arg7)) (m ((c : Thread nD τ).loc main_arg8)) := by
  have e1 : W4 m ρ c (Proc.devRef .tc main_v41) = (dat1 (V3 m ρ) c).arrAt 6 cfg1.N := W4_arr m ρ c 6
  rw [e1, Region1.final (V3 m ρ) c]
  unfold Region1.whole result
  rw [V3_sums, V3_counts, V3_feats, V3_wl, V3_wr, V3_bias]

end Cert.KernelIdeal.Entry

end
-- ==== Proof.KernelRun.lean ====
/-
  The kernel program's run with its two result arrays named. Every weakly fair execution of @main on the
  TensorCores terminates, nothing faulting; at the end every buffer that outlives the regions holds the last
  boundary's contents — the fold of the two stretches of host lines and the two regions' write-backs from the
  launch memory. Read at the two result buffers this names what the program returns; read at the arguments it
  gives them back as launched.
-/
import proofs.«164971_j48198122995902_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- matching the several-region run theorem's conclusion with this statement unfolds plain definitions inside types
set_option backward.isDefEq.respectTransparency.types false in
/-- The run, with the two results at the last boundary's contents and the arguments as launched. -/
theorem run : θ_run defs (onTc (τ := τ) (main (F := F))) ⟨m, fun _ => 0, ρ⟩ (fun r => ∀ c : Dev nD,
      r.2.mem ((c.tc : Thread nD τ).loc main_v22) = W4 m ρ c (Proc.devRef .tc main_v22)
      ∧ r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v22 (by decide)),
       h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Results

end
-- ==== Proof.Claims.lean ====
/-
  The five claims. The three programs' runs: the word-level kernel's and the idealized kernel's by their frames,
  the reference's by its run read back. No operation was rewritten in the idealization. Over the extended reals
  both idealized programs return, for each of the two feature arrays, the mean-aggregation convolution
  `Cert.KernelIdeal.Entry.result` of the arguments: the kernel adds the bias row after the two matrix products,
  the reference between them, and addition of extended reals is commutative and associative at every value,
  infinite ones included, so the precondition is never opened. The per-node sums and counts are the same host
  lines in both programs and are never unfolded.
-/
import proofs.«164971_j48198122995902_1_alg».proof.Defs
import proofs.«164971_j48198122995902_1_alg».proof.Proof.Gen.Kernel
import proofs.«164971_j48198122995902_1_alg».proof.Proof.Gen.KernelIdeal
import proofs.«164971_j48198122995902_1_alg».proof.Proof.Gen.ReferenceIdeal
import proofs.«164971_j48198122995902_1_alg».proof.Proof.Gen.Pre_finite_inputs
import proofs.«164971_j48198122995902_1_alg».proof.Proof.Gen.Kernel.Frame
import proofs.«164971_j48198122995902_1_alg».proof.Proof.Gen.KernelIdeal.Frame
import proofs.«164971_j48198122995902_1_alg».proof.Proof.Gen.ReferenceIdeal.Run
import proofs.«164971_j48198122995902_1_alg».proof.Proof.Entry
import proofs.«164971_j48198122995902_1_alg».proof.Proof.KernelRun

set_option maxRecDepth 16384

noncomputable section

open Idealize.ShloMosaic Idealize.ShloMosaic.TcCoe Idealize.SL.Sem

namespace Cert.Proof.Claims

open Cert.MeanConv

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

open Cert.KernelIdeal in
/-- The idealized kernel's run: each result array at the convolution of the arguments, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22)
        = Entry.result (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v41)
        = Entry.result (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono
    (fun _ h c => ⟨(h c).1.trans (Entry.W4_first m ρ c), (h c).2.1.trans (Entry.W4_second m ρ c), (h c).2.2⟩)
    (Results.run (F := Ideal) m ρ)

/-- From memories agreeing on the arguments both idealized programs end with each result at the same convolution
    of the arguments: the kernel's by its run above, the reference's run term by the host's spelling of the
    convolution, which is the bias-first arrangement and hence the same function. -/
theorem algebraic : Cert.algebraic_KernelIdeal_ReferenceIdeal := by
  intro m ρ m' ρ' _ hagree
  refine ⟨fun c => Cert.KernelIdeal.Entry.result (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.KernelIdeal.Entry.result (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    kernel_run m ρ, ?_⟩
  refine (θ_run Cert.ReferenceIdeal.defs _ _).mono (fun _ h c => ?_) (Cert.ReferenceIdeal.Value.run (F := Ideal) m' ρ')
  obtain ⟨h0, h1, h2, h3, h4, h5, h6, h7, h8⟩ := hagree c
  refine ⟨(h c).1.trans ?_, (h c).2.1.trans ?_, (h c).2.2⟩
  · rw [h0, h2, h3, h4, h5]
    unfold Cert.KernelIdeal.Entry.result
    exact conv_of_host _ rfl _ _ _ _ _ _ _ _ _ _ _ _ _
  · rw [h1, h2, h6, h7, h8]
    unfold Cert.KernelIdeal.Entry.result
    exact conv_of_host _ rfl _ _ _ _ _ _ _ _ _ _ _ _ _

end Cert.Proof.Claims

end
-- ==== Proof.lean ====
/-
  The certificate's claim: the stated facts of the three programs and of the precondition, the three runs, the
  idealization (no operation rewritten) and the agreement of the two idealized programs' results over the extended
  reals, each proved in Proof/Claims.lean.
-/
import proofs.«164971_j48198122995902_1_alg».proof.Defs
import proofs.«164971_j48198122995902_1_alg».proof.Proof.Gen.Kernel
import proofs.«164971_j48198122995902_1_alg».proof.Proof.Gen.KernelIdeal
import proofs.«164971_j48198122995902_1_alg».proof.Proof.Gen.ReferenceIdeal
import proofs.«164971_j48198122995902_1_alg».proof.Proof.Gen.Pre_finite_inputs
import proofs.«164971_j48198122995902_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
